-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S500000x2 : Shape := ⟨2, ![500000, 2]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x1 .f32) (main_arg12 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64x64 .f32) (main_arg7 : FVec F S64 .f32) (main_arg8 : FVec F S64x64 .f32) (main_arg9 : FVec F S128x64 .f32) (main_arg10 : FVec F S64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x1280000 32) (main_arg2 : IVec S500000x2 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S128x64 .f32) (main_arg10 : FVec F S64 .f32) (main_arg11 : FVec F S64x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x1280000 : Shape := ⟨2, ![2, 1280000]⟩
abbrev S500000x2 : Shape := ⟨2, ![500000, 2]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S500000x1 : Shape := ⟨2, ![500000, 1]⟩
abbrev S500000 : Shape := ⟨1, ![500000]⟩
abbrev S500000x64 : Shape := ⟨2, ![500000, 64]⟩
abbrev S500000x128 : Shape := ⟨2, ![500000, 128]⟩
abbrev S1x1 : Shape := ⟨2, ![1, 1]⟩
abbrev S10000x128 : Shape := ⟨2, ![10000, 128]⟩
abbrev S10000x1 : Shape := ⟨2, ![10000, 1]⟩

abbrev nBuf : Space → Nat
  | .hbm => 97
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S500000x2, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1280000, .i32⟩
  | .hbm, ⟨14, _⟩ => ⟨S1280000, .i32⟩
  | .hbm, ⟨15, _⟩ => ⟨S1x1280000, .i32⟩
  | .hbm, ⟨16, _⟩ => ⟨S1280000, .i32⟩
  | .hbm, ⟨17, _⟩ => ⟨S_, .i32⟩
  | .hbm, ⟨18, _⟩ => ⟨S1280000, .i32⟩
  | .hbm, ⟨19, _⟩ => ⟨S1280000, .i1⟩
  | .hbm, ⟨20, _⟩ => ⟨S_, .i32⟩
  | .hbm, ⟨21, _⟩ => ⟨S1280000, .i32⟩
  | .hbm, ⟨22, _⟩ => ⟨S1280000, .i32⟩
  | .hbm, ⟨23, _⟩ => ⟨S1280000, .i32⟩
  | .hbm, ⟨24, _⟩ => ⟨S1280000x1, .i32⟩
  | .hbm, ⟨25, _⟩ => ⟨S1280000x64, .f32⟩
  | .hbm, ⟨26, _⟩ => ⟨S_, .f32⟩
  | .hbm, ⟨27, _⟩ => ⟨S100000x64, .f32⟩
  | .hbm, ⟨28, _⟩ => ⟨S1280000x1, .i32⟩
  | .hbm, ⟨29, _⟩ => ⟨S100000x64, .f32⟩
  | .hbm, ⟨30, _⟩ => ⟨S_, .f32⟩
  | .hbm, ⟨31, _⟩ => ⟨S1280000, .f32⟩
  | .hbm, ⟨32, _⟩ => ⟨S_, .f32⟩
  | .hbm, ⟨33, _⟩ => ⟨S100000, .f32⟩
  | .hbm, ⟨34, _⟩ => ⟨S1280000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1280000, .i32⟩
  | .hbm, ⟨46, _⟩ => ⟨S1280000, .i1⟩
  | .hbm, ⟨47, _⟩ => ⟨S_, .i32⟩
  | .hbm, ⟨48, _⟩ => ⟨S1280000, .i32⟩
  | .hbm, ⟨49, _⟩ => ⟨S1280000, .i32⟩
  | .hbm, ⟨50, _⟩ => ⟨S1280000, .i32⟩
  | .hbm, ⟨51, _⟩ => ⟨S1280000x1, .i32⟩
  | .hbm, ⟨52, _⟩ => ⟨S1280000x64, .f32⟩
  | .hbm, ⟨53, _⟩ => ⟨S_, .f32⟩
  | .hbm, ⟨54, _⟩ => ⟨S100000x64, .f32⟩
  | .hbm, ⟨55, _⟩ => ⟨S1280000x1, .i32⟩
  | .hbm, ⟨56, _⟩ => ⟨S100000x64, .f32⟩
  | .hbm, ⟨57, _⟩ => ⟨S_, .f32⟩
  | .hbm, ⟨58, _⟩ => ⟨S1280000, .f32⟩
  | .hbm, ⟨59, _⟩ => ⟨S_, .f32⟩
  | .hbm, ⟨60, _⟩ => ⟨S100000, .f32⟩
  | .hbm, ⟨61, _⟩ => ⟨S1280000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S500000x1, .i32⟩
  | .hbm, ⟨72, _⟩ => ⟨S500000, .i32⟩
  | .hbm, ⟨73, _⟩ => ⟨S_, .i32⟩
  | .hbm, ⟨74, _⟩ => ⟨S500000, .i32⟩
  | .hbm, ⟨75, _⟩ => ⟨S500000, .i1⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000, .i32⟩
  | .hbm, ⟨80, _⟩ => ⟨S500000x1, .i32⟩
  | .hbm, ⟨81, _⟩ => ⟨S500000x64, .f32⟩
  | .hbm, ⟨82, _⟩ => ⟨S500000x1, .i32⟩
  | .hbm, ⟨83, _⟩ => ⟨S500000, .i32⟩
  | .hbm, ⟨84, _⟩ => ⟨S_, .i32⟩
  | .hbm, ⟨85, _⟩ => ⟨S500000, .i32⟩
  | .hbm, ⟨86, _⟩ => ⟨S500000, .i1⟩
  | .hbm, ⟨87, _⟩ => ⟨S_, .i32⟩
  | .hbm, ⟨88, _⟩ => ⟨S500000, .i32⟩
  | .hbm, ⟨89, _⟩ => ⟨S500000, .i32⟩
  | .hbm, ⟨90, _⟩ => ⟨S500000, .i32⟩
  | .hbm, ⟨91, _⟩ => ⟨S500000x1, .i32⟩
  | .hbm, ⟨92, _⟩ => ⟨S500000x64, .f32⟩
  | .hbm, ⟨93, _⟩ => ⟨S500000x128, .f32⟩
  | .hbm, ⟨94, _⟩ => ⟨S1x64, .f32⟩
  | .hbm, ⟨95, _⟩ => ⟨S1x1, .f32⟩
  | .hbm, ⟨96, _⟩ => ⟨S500000x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x128, .f32⟩
  | .local _ .vmem, ⟨19, _⟩ => ⟨S10000x128, .f32⟩
  | .local _ .vmem, ⟨20, _⟩ => ⟨S128x64, .f32⟩
  | .local _ .vmem, ⟨21, _⟩ => ⟨S1x64, .f32⟩
  | .local _ .vmem, ⟨22, _⟩ => ⟨S64x1, .f32⟩
  | .local _ .vmem, ⟨23, _⟩ => ⟨S1x1, .f32⟩
  | .local _ .vmem, ⟨24, _⟩ => ⟨S10000x1, .f32⟩
  | .local _ .vmem, ⟨25, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  concatenates_S500000x64_S500000x64_S500000x128_d1 : Shape.Concatenates [S500000x64, S500000x64] S500000x128 1
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  scatter_S100000_S1280000x1_S1280000_n_0_0_1_wf : ScatterDims.WF S100000 S1280000x1 S1280000 [] [0] [0] 1
  dot_S10000x64_S64x64_S10000x64_1_0_0_1_n_n_wf : DotDims.WF S10000x64 S64x64 S10000x64 [1] [0] [0] [1] [] []
  gather_S100000x64_S500000x1_S500000x64_1_0_n_n_0_1_164_wf : GatherDims.WF S100000x64 S500000x1 S500000x64 [1] [0] [] [0] [] 1 ![1, 64]
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S500000x128.size a
  hwx2_0 : ∀ i : grid2.Coords, EltTy.bits .f32 = 32 ∨ (Rect.block (s := S500000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x1.size a ≤ S500000x1.size a
  hwx2_5 : ∀ i : grid2.Coords, EltTy.bits .f32 = 32 ∨ (Rect.block (s := S500000x1) S10000x1.size (cc2_transform_5 i) (hinb2_5 i)).WholeWords (EltTy.packing .f32)

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S10000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S500000x2 : Shape := ⟨2, ![500000, 2]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S100000 : Shape := ⟨1, ![100000]⟩
abbrev S100000x1 : Shape := ⟨2, ![100000, 1]⟩
abbrev S1x64 : Shape := ⟨2, ![1, 64]⟩
abbrev S500000x1 : Shape := ⟨2, ![500000, 1]⟩
abbrev S500000 : Shape := ⟨1, ![500000]⟩
abbrev S500000x64 : Shape := ⟨2, ![500000, 64]⟩
abbrev S500000x128 : Shape := ⟨2, ![500000, 128]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S500000x2, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1280000, .i32⟩
  | .hbm, ⟨14, _⟩ => ⟨S1280000, .i32⟩
  | .hbm, ⟨15, _⟩ => ⟨S1x1280000, .i32⟩
  | .hbm, ⟨16, _⟩ => ⟨S1280000, .i32⟩
  | .hbm, ⟨17, _⟩ => ⟨S_, .i32⟩
  | .hbm, ⟨18, _⟩ => ⟨S1280000, .i32⟩
  | .hbm, ⟨19, _⟩ => ⟨S1280000, .i1⟩
  | .hbm, ⟨20, _⟩ => ⟨S_, .i32⟩
  | .hbm, ⟨21, _⟩ => ⟨S1280000, .i32⟩
  | .hbm, ⟨22, _⟩ => ⟨S1280000, .i32⟩
  | .hbm, ⟨23, _⟩ => ⟨S1280000, .i32⟩
  | .hbm, ⟨24, _⟩ => ⟨S1280000x1, .i32⟩
  | .hbm, ⟨25, _⟩ => ⟨S1280000x64, .f32⟩
  | .hbm, ⟨26, _⟩ => ⟨S_, .f32⟩
  | .hbm, ⟨27, _⟩ => ⟨S100000x64, .f32⟩
  | .hbm, ⟨28, _⟩ => ⟨S1280000x1, .i32⟩
  | .hbm, ⟨29, _⟩ => ⟨S100000x64, .f32⟩
  | .hbm, ⟨30, _⟩ => ⟨S_, .f32⟩
  | .hbm, ⟨31, _⟩ => ⟨S1280000, .f32⟩
  | .hbm, ⟨32, _⟩ => ⟨S_, .f32⟩
  | .hbm, ⟨33, _⟩ => ⟨S100000, .f32⟩
  | .hbm, ⟨34, _⟩ => ⟨S1280000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1280000, .i32⟩
  | .hbm, ⟨53, _⟩ => ⟨S1280000, .i1⟩
  | .hbm, ⟨54, _⟩ => ⟨S_, .i32⟩
  | .hbm, ⟨55, _⟩ => ⟨S1280000, .i32⟩
  | .hbm, ⟨56, _⟩ => ⟨S1280000, .i32⟩
  | .hbm, ⟨57, _⟩ => ⟨S1280000, .i32⟩
  | .hbm, ⟨58, _⟩ => ⟨S1280000x1, .i32⟩
  | .hbm, ⟨59, _⟩ => ⟨S1280000x64, .f32⟩
  | .hbm, ⟨60, _⟩ => ⟨S_, .f32⟩
  | .hbm, ⟨61, _⟩ => ⟨S100000x64, .f32⟩
  | .hbm, ⟨62, _⟩ => ⟨S1280000x1, .i32⟩
  | .hbm, ⟨63, _⟩ => ⟨S100000x64, .f32⟩
  | .hbm, ⟨64, _⟩ => ⟨S_, .f32⟩
  | .hbm, ⟨65, _⟩ => ⟨S1280000, .f32⟩
  | .hbm, ⟨66, _⟩ => ⟨S_, .f32⟩
  | .hbm, ⟨67, _⟩ => ⟨S100000, .f32⟩
  | .hbm, ⟨68, _⟩ => ⟨S1280000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S500000x1, .i32⟩
  | .hbm, ⟨86, _⟩ => ⟨S500000, .i32⟩
  | .hbm, ⟨87, _⟩ => ⟨S_, .i32⟩
  | .hbm, ⟨88, _⟩ => ⟨S500000, .i32⟩
  | .hbm, ⟨89, _⟩ => ⟨S500000, .i1⟩
  | .hbm, ⟨90, _⟩ => ⟨S_, .i32⟩
  | .hbm, ⟨91, _⟩ => ⟨S500000, .i32⟩
  | .hbm, ⟨92, _⟩ => ⟨S500000, .i32⟩
  | .hbm, ⟨93, _⟩ => ⟨S500000, .i32⟩
  | .hbm, ⟨94, _⟩ => ⟨S500000x1, .i32⟩
  | .hbm, ⟨95, _⟩ => ⟨S500000x64, .f32⟩
  | .hbm, ⟨96, _⟩ => ⟨S500000x1, .i32⟩
  | .hbm, ⟨97, _⟩ => ⟨S500000, .i32⟩
  | .hbm, ⟨98, _⟩ => ⟨S_, .i32⟩
  | .hbm, ⟨99, _⟩ => ⟨S500000, .i32⟩
  | .hbm, ⟨100, _⟩ => ⟨S500000, .i1⟩
  | .hbm, ⟨101, _⟩ => ⟨S_, .i32⟩
  | .hbm, ⟨102, _⟩ => ⟨S500000, .i32⟩
  | .hbm, ⟨103, _⟩ => ⟨S500000, .i32⟩
  | .hbm, ⟨104, _⟩ => ⟨S500000, .i32⟩
  | .hbm, ⟨105, _⟩ => ⟨S500000x1, .i32⟩
  | .hbm, ⟨106, _⟩ => ⟨S500000x64, .f32⟩
  | .hbm, ⟨107, _⟩ => ⟨S500000x128, .f32⟩
  | .hbm, ⟨108, _⟩ => ⟨S500000x64, .f32⟩
  | .hbm, ⟨109, _⟩ => ⟨S1x64, .f32⟩
  | .hbm, ⟨110, _⟩ => ⟨S500000x64, .f32⟩
  | .hbm, ⟨111, _⟩ => ⟨S500000x64, .f32⟩
  | .hbm, ⟨112, _⟩ => ⟨S_, .f32⟩
  | .hbm, ⟨113, _⟩ => ⟨S500000x64, .f32⟩
  | .hbm, ⟨114, _⟩ => ⟨S500000x64, .f32⟩
  | .hbm, ⟨115, _⟩ => ⟨S500000x1, .f32⟩
  | .hbm, ⟨116, _⟩ => ⟨S1x1, .f32⟩
  | .hbm, ⟨117, _⟩ => ⟨S500000x1, .f32⟩
  | .hbm, ⟨118, _⟩ => ⟨S500000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_call2_cst : Ref sig .tc := ⟨.hbm, 112, rfl⟩
abbrev main_call2_v0 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  concatenates_S500000x64_S500000x64_S500000x128_d1 : Shape.Concatenates [S500000x64, S500000x64] S500000x128 1
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  scatter_S100000_S1280000x1_S1280000_n_0_0_1_wf : ScatterDims.WF S100000 S1280000x1 S1280000 [] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.KernelRun.lean ====
/-
  The kernel program's run, with its result named.

  The program is three kernel launches among stretches of host operations. Every weakly fair execution terminates
  without a fault. When it does, each buffer that lives for the whole program holds the contents obtained by folding
  the program's steps over the launch memory: a host stretch applies its operations in order; a launch leaves in each
  of its arrays what its grid points wrote back and leaves every other buffer alone. `run_all` states that for every
  such buffer at once; `run_named` keeps, of that final memory, the result array (the last launch's output) beside
  the thirteen argument arrays, which no step writes and which therefore end as launched.
-/
import proofs.«172939_j24696061952120_1_alg».proof.Proof.Gen.KernelIdeal.Frame

set_option maxRecDepth 16384

noncomputable section

namespace Cert.KernelIdeal.Run

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A final memory in which every program-lifetime buffer of core `c` holds the last boundary's contents. -/
def AtEnd (c : Dev nD) (s : MemSt nD τ sig (Elt F)) : Prop :=
  ∀ b ∈ Pipeline.ucRefs τ sig, s.mem (((c : Thread nD τ)).1, b) = Gen.W6 m ρ c b

/-- What a core holds when it starts: every program-lifetime buffer at its launch contents, and beside them the
    generator register at some state and a debt of nothing. -/
abbrev Start (c : Dev nD) : sProp 𝕄 :=
  iprop(StableHlo.held (c : Thread nD τ) (Pipeline.ucRefs τ sig) (Gen.W0 m ρ c) ∗ Gen.R c)

set_option backward.isDefEq.respectTransparency.types false in
/-- Every weakly fair execution terminates, nothing faulting, and every program-lifetime buffer ends at the fold of
    the six segments over the launch memory. -/
theorem run_all : θ_run defs (onTc (τ := τ) (main (F := F))) ⟨m, fun _ => 0, ρ⟩ (fun r => ∀ c : Dev nD, AtEnd m ρ c r.2) :=
  Pipeline.θ_run_regions_kit (pcfgs (F := F)) Gen.adm (Gen.pdats m ρ) () Gen.cellOf_inj emb₁ defs₀ Gen.𝒱₀ Gen.L Gen.lv m ρ main
    (Gen.segs m ρ)
    -- the program is the run of its six segments, in order
    (fun c Q => by rw [Gen.main_run m ρ c])
    -- and enters each of its three pipelines once
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    -- the launch's ghost element is the pipelines' own; no core needs a resource beside it
    (hu₀ := by
      iintro Hown
      imodintro
      isplitl [Hown]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hown
      · -- nothing, once per core, is nothing
        have hnone : (BI.emp : sProp 𝕄) ⊢ bigSep Finset.univ (fun _ : Dev nD => (BI.emp : sProp 𝕄)) := by
          rw [BI.bigSep_emp_const]
        iapply hnone
        iempintro)
    (T₀ := Start m ρ) (Tₙ := Gen.Tₙ m ρ)
    -- each segment starts from what the one before it leaves
    (hch := ⟨fun _ => .rfl, fun _ => .rfl, fun _ => .rfl, fun _ => .rfl, fun _ => .rfl, fun _ => .rfl, fun _ => .rfl⟩)
    -- a core's first state, from what the launch deals it: its buffers at the launch memory, its register, no debt
    (hinit := by
      refine Pipeline.initEach Gen.L Gen.lv fun c => ?_
      rw [show unscopedBufs c (fun b => m ((c : Thread nD τ).loc b))
          = StableHlo.held (c : Thread nD τ) (Pipeline.ucRefs τ sig) (Gen.W0 m ρ c) from Pipeline.unscopedBufs_held c (Gen.W0 m ρ c)]
      iintro ⟨⟨Hbufs, -, Hdebt, -, Hreg, -⟩, -⟩
      imodintro
      isplitl [Hbufs]
      · iexact Hbufs
      isplitl [Hreg]
      · iexists _
        iexact Hreg
      · iexists ∅
        iexact Hdebt)
    (QY := AtEnd m ρ)
    -- a core's last state, read against a final memory
    (hfin := fun c s' => by
      iintro ⟨⟨Hbufs, -⟩, Hstate⟩
      unfold StableHlo.held
      imodintro
      iapply (pointsTo_read_all (Pipeline.ucRefs τ sig) (fun b => (((c : Thread nD τ)).1, b)) (Gen.W6 m ρ c) s')
      isplitl [Hbufs] <;> iassumption)
    (hQ := fun _ h => h)

/-- Of that final memory: the result array is the last boundary's contents at the last launch's output, and each
    argument is as launched. -/
theorem run_named : θ_run defs (onTc (τ := τ) (main (F := F))) ⟨m, fun _ => 0, ρ⟩ (fun r => ∀ c : Dev nD,
      r.2.mem ((c.tc : Thread nD τ).loc main_v67) = Gen.W6 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (Gen.mem_uc main_v67 (by decide)),
      (h c _ (Gen.mem_uc main_arg0 (by decide))).trans (Gen.W6_main_arg0 m ρ c),
      (h c _ (Gen.mem_uc main_arg1 (by decide))).trans (Gen.W6_main_arg1 m ρ c),
      (h c _ (Gen.mem_uc main_arg2 (by decide))).trans (Gen.W6_main_arg2 m ρ c),
      (h c _ (Gen.mem_uc main_arg3 (by decide))).trans (Gen.W6_main_arg3 m ρ c),
      (h c _ (Gen.mem_uc main_arg4 (by decide))).trans (Gen.W6_main_arg4 m ρ c),
      (h c _ (Gen.mem_uc main_arg5 (by decide))).trans (Gen.W6_main_arg5 m ρ c),
      (h c _ (Gen.mem_uc main_arg6 (by decide))).trans (Gen.W6_main_arg6 m ρ c),
      (h c _ (Gen.mem_uc main_arg7 (by decide))).trans (Gen.W6_main_arg7 m ρ c),
      (h c _ (Gen.mem_uc main_arg8 (by decide))).trans (Gen.W6_main_arg8 m ρ c),
      (h c _ (Gen.mem_uc main_arg9 (by decide))).trans (Gen.W6_main_arg9 m ρ c),
      (h c _ (Gen.mem_uc main_arg10 (by decide))).trans (Gen.W6_main_arg10 m ρ c),
      (h c _ (Gen.mem_uc main_arg11 (by decide))).trans (Gen.W6_main_arg11 m ρ c),
      (h c _ (Gen.mem_uc main_arg12 (by decide))).trans (Gen.W6_main_arg12 m ρ c)⟩)
    (run_all m ρ)

end Cert.KernelIdeal.Run

end
-- ==== Proof.SageBody.lean ====
/-
  One grid point of a SAGE layer, as arithmetic on the extended reals.

  A grid point holds a block of 10000 rows of the aggregated neighbour means `mean` and of the node features `x`
  (both 10000 × 64), the two 64 × 64 weight matrices `Wl`, `Wr` and the bias as one row `b` (1 × 64), and stores

      out[p, q] = max ( (Σ_k mean[p, k] · Wl[k, q]  +  b[0, q])  +  Σ_k x[p, k] · Wr[k, q] ,  0 ).

  The body narrows every operand to bf16 before each product; on the extended reals a change of float format is the
  identity, each `tpu.matmul` into a zero accumulator is the plain sum over the one contracted axis, and the bias row
  is broadcast down the rows. Both layers' bodies are this function (the second spells one more same-shape cast).
-/
import proofs.«172939_j24696061952120_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Sage

open Cert.KernelIdeal Cert.KernelIdeal.Gen Idealize.ShloMosaic Idealize.ShloMosaic.ValueIdx
open scoped BigOperators

/-- The dimension numbers of a (10000 × 64) · (64 × 64) product: contract the left operand's columns with the right
    operand's rows. -/
local notation "D64" => dot_S10000x64_S64x64_S10000x64_1_0_0_1_n_n

theorem lhs_row (i : S10000x64.Idx) (r : (D64).contr.Idx) : ((D64).lhsIdx i r 0).val = (i 0).val := by
  unfold DotDims.lhsIdx
  rw [dif_neg (show ¬(0 : Fin S10000x64.rank) ∈ (D64).lhsBatch by decide),
    dif_pos (show (0 : Fin S10000x64.rank) ∈ (D64).lhsNonContracting by decide)]
  rfl

theorem lhs_col (i : S10000x64.Idx) (r : (D64).contr.Idx) : ((D64).lhsIdx i r 1).val = (r ⟨0, by decide⟩).val :=
  (D64).lhsIdx_val_of_single rfl i r

theorem rhs_row (i : S10000x64.Idx) (r : (D64).contr.Idx) : ((D64).rhsIdx i r 0).val = (r ⟨0, by decide⟩).val :=
  (D64).rhsIdx_val_of_single rfl i r

theorem rhs_col (i : S10000x64.Idx) (r : (D64).contr.Idx) : ((D64).rhsIdx i r 1).val = (i 1).val := by
  unfold DotDims.rhsIdx
  rw [dif_neg (show ¬(1 : Fin S64x64.rank) ∈ (D64).rhsBatch by decide),
    dif_pos (show (1 : Fin S64x64.rank) ∈ (D64).rhsNonContracting by decide)]
  rfl

/-- A block's product with a weight matrix, accumulated from zero, is the plain sum over the shared axis. -/
theorem matmul_zero_apply {φ₁ φ₂ : FTy} (l : FVec Ideal S10000x64 φ₁) (r : FVec Ideal S64x64 φ₂) (p : Fin 10000) (q : Fin 64) :
    matmul D64 none l r (constant S10000x64 .f32 0x00000000#32) (ix2 p q) = ∑ k : Fin 64, l (ix2 p k) * r (ix2 k q) := by
  simp only [matmul]
  rw [Ideal.matmul_constant_zero_apply, ← Equiv.sum_comp (contrEquiv1 D64 64 rfl rfl).symm]
  refine Finset.sum_congr rfl fun k _ => ?_
  have hk := contrEquiv1_symm_val D64 64 rfl rfl k
  have el : (D64).lhsIdx (ix2 p q) ((contrEquiv1 D64 64 rfl rfl).symm k) = ix2 p k := funext fun a => Fin.ext (by
    match a with
    | ⟨0, _⟩ => exact lhs_row _ _
    | ⟨1, _⟩ => exact (lhs_col _ _).trans hk)
  have er : (D64).rhsIdx (ix2 p q) ((contrEquiv1 D64 64 rfl rfl).symm k) = ix2 k q := funext fun a => Fin.ext (by
    match a with
    | ⟨0, _⟩ => exact (rhs_row _ _).trans hk
    | ⟨1, _⟩ => exact rhs_col _ _)
  rw [el, er]

/-- One entry of a layer's output, from `n` rows of means and of features, the two weight matrices and the bias row:
    the same formula for a block of rows and for the whole array. -/
def entry {n : ℕ} (mean x : (⟨2, ![n, 64]⟩ : Shape).Idx → EReal) (Wl : S64x64.Idx → EReal) (b : S1x64.Idx → EReal)
    (Wr : S64x64.Idx → EReal) (p : Fin n) (q : Fin 64) : EReal :=
  max (((∑ k : Fin 64, mean (ix2 p k) * Wl (ix2 k q)) + b (ix2 (0 : Fin 1) q)) + ∑ k : Fin 64, x (ix2 p k) * Wr (ix2 k q))
    (Ideal.ofBits .f32 0x00000000#32)

/-- `entry` depends on its operands only through row `p` of the means and of the features, column `q` of the two
    weight matrices and entry `q` of the bias row. -/
theorem entry_congr {n n' : ℕ} (mean x : (⟨2, ![n, 64]⟩ : Shape).Idx → EReal) (mean' x' : (⟨2, ![n', 64]⟩ : Shape).Idx → EReal)
    (Wl Wl' : S64x64.Idx → EReal) (b b' : S1x64.Idx → EReal) (Wr Wr' : S64x64.Idx → EReal) (p : Fin n) (p' : Fin n') (q q' : Fin 64)
    (hmean : ∀ k : Fin 64, mean (ix2 p k) = mean' (ix2 p' k)) (hx : ∀ k : Fin 64, x (ix2 p k) = x' (ix2 p' k))
    (hWl : ∀ k : Fin 64, Wl (ix2 k q) = Wl' (ix2 k q')) (hb : b (ix2 (0 : Fin 1) q) = b' (ix2 (0 : Fin 1) q'))
    (hWr : ∀ k : Fin 64, Wr (ix2 k q) = Wr' (ix2 k q')) :
    entry mean x Wl b Wr p q = entry mean' x' Wl' b' Wr' p' q' := by
  unfold entry
  simp only [hmean, hx, hWl, hb, hWr]

/-- The first layer's body stores `entry` of its loaded blocks. -/
theorem pay0_apply (v0 v3 : Vec Ideal S10000x64 .f32) (v5 v7 : Vec Ideal S64x64 .f32) (v10 : Vec Ideal S1x64 .f32)
    (p : Fin 10000) (q : Fin 64) : k0_pay1 v0 v3 v5 v7 v10 (ix2 p q) = entry v0 v3 v5 v10 v7 p q := by
  unfold k0_pay1 entry
  rw [maximumf_apply, addf_apply, addf_apply, matmul_zero_apply, matmul_zero_apply, broadcastTo_1b_ab_apply]
  simp only [truncf_apply, shapeCast_self, broadcast_apply]
  rfl

/-- The second layer's body stores `entry` of its loaded blocks. -/
theorem pay1_apply (v0 v3 : Vec Ideal S10000x64 .f32) (v6 v8 : Vec Ideal S64x64 .f32) (v11 : Vec Ideal S1x64 .f32)
    (p : Fin 10000) (q : Fin 64) : k1_pay1 v0 v3 v6 v8 v11 (ix2 p q) = entry v0 v3 v6 v11 v8 p q := by
  unfold k1_pay1 entry
  rw [maximumf_apply, addf_apply, addf_apply, matmul_zero_apply, matmul_zero_apply, broadcastTo_1b_ab_apply]
  simp only [truncf_apply, shapeCast_self, broadcast_apply]
  rfl

end Cert.KernelIdeal.Sage

end
-- ==== Proof.SageRegion.lean ====
/-
  One SAGE launch, as one function of whole arrays.

  A launch runs its body at ten grid points; point `t` sees rows 10000·t … 10000·t + 9999 of the aggregated means and
  of the node features, the two weight matrices and the bias row whole, and writes back rows 10000·t … of the output.
  The ten output blocks tile the 100000 rows, so after the launch the output array is, entry by entry,

      layer mean x Wl b Wr (r, q) = max ( (Σ_k mean[r, k] · Wl[k, q] + b[0, q]) + Σ_k x[r, k] · Wr[k, q] , 0 )

  of the arrays as the launch found them. Both layers are stated at an arbitrary memory `V` at the launch's entry.
-/
import proofs.«172939_j24696061952120_1_alg».proof.Proof.Gen.KernelIdeal.Frame
import proofs.«172939_j24696061952120_1_alg».proof.Proof.SageBody

set_option maxRecDepth 16384

noncomputable section

namespace Cert.KernelIdeal.Sage

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- A layer's whole output array from its five whole input arrays. -/
def layer (mean x : S100000x64.Idx → EReal) (Wl : S64x64.Idx → EReal) (b : S1x64.Idx → EReal) (Wr : S64x64.Idx → EReal) :
    S100000x64.Idx → EReal :=
  fun i => entry mean x Wl b Wr (i 0) (i 1)

theorem hz : (![0, 0] : Fin 2 → Nat) = fun _ => 0 := funext fun a => by fin_cases a <;> rfl

/-! ## Launch 0: the first layer -/

section Launch0

/-- Where each window's block sits at grid point `t`, decided over the ten points: the blocks of means, of features and
    of the output are all block `t` of the rows, and the two weight matrices and the bias row are whole. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every one of the ten row blocks is some grid point's output block. -/
theorem idx_onto0 : ∀ q0 : Fin 10, ∃ t : Fin cfg0.N, win0_5.index t = ![q0.val, 0] :=
  (by decide +kernel : ∀ q0 : Fin 10, ∃ t : Fin grid0.N, win0_5.index t = ![q0.val, 0])

/-- What grid point `t` writes back is block `t` of `layer` of the five arrays as the launch finds them: row `p` of
    the point's blocks of means and features is row `10000·t + p` of the arrays, and the weights and the bias are read
    whole. -/
theorem flushed0 (c : Dev nD) (t : Fin cfg0.N) :
    (dat0 V c).flushed 5 t = ((cfg0.win 5).blk t).view.read (Elt Ideal)
      (layer (V c main_v22) (V c main_arg0) (V c main_arg3) (V c main_v23) (V c main_arg5)) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e51⟩ := idx_facts0 t
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (iblk0 V c 4 t) (iblk0 V c 3 t) (ix2 p q)
    = layer (V c main_v22) (V c main_arg0) (V c main_arg3) (V c main_v23) (V c main_arg5) (((cfg0.win 5).blk t).view.emb (ix2 p q))
  rw [pay0_apply]
  unfold layer
  refine entry_congr _ _ _ _ _ _ _ _ _ _ p _ q _ (fun k => ?_) (fun k => ?_) (fun k => ?_) ?_ (fun k => ?_)
  · show V c main_v22 (((cfg0.win 0).blk t).view.emb (ix2 p k)) = _
    refine congrArg (V c main_v22) ?_
    funext a; apply Fin.ext
    match a with
    | ⟨0, _⟩ => show win0_0.index t (0 : Fin 2) * 10000 + 1 * p.val = win0_5.index t (0 : Fin 2) * 10000 + 1 * p.val; omega
    | ⟨1, _⟩ => show win0_0.index t (1 : Fin 2) * 64 + 1 * k.val = k.val; omega
  · show V c main_arg0 (((cfg0.win 1).blk t).view.emb (ix2 p k)) = _
    refine congrArg (V c main_arg0) ?_
    funext a; apply Fin.ext
    match a with
    | ⟨0, _⟩ => show win0_1.index t (0 : Fin 2) * 10000 + 1 * p.val = win0_5.index t (0 : Fin 2) * 10000 + 1 * p.val; omega
    | ⟨1, _⟩ => show win0_1.index t (1 : Fin 2) * 64 + 1 * k.val = k.val; omega
  · show V c main_arg3 (((cfg0.win 2).blk t).view.emb (ix2 k q)) = _
    refine congrArg (V c main_arg3) ?_
    funext a; apply Fin.ext
    match a with
    | ⟨0, _⟩ => show win0_2.index t (0 : Fin 2) * 64 + 1 * k.val = k.val; omega
    | ⟨1, _⟩ => show win0_2.index t (1 : Fin 2) * 64 + 1 * q.val = win0_5.index t (1 : Fin 2) * 64 + 1 * q.val; omega
  · show V c main_v23 (((cfg0.win 3).blk t).view.emb (ix2 (0 : Fin 1) q)) = _
    refine congrArg (V c main_v23) ?_
    funext a; apply Fin.ext
    match a with
    | ⟨0, _⟩ => show win0_3.index t (0 : Fin 2) * 1 + 1 * 0 = 0; omega
    | ⟨1, _⟩ => show win0_3.index t (1 : Fin 2) * 64 + 1 * q.val = win0_5.index t (1 : Fin 2) * 64 + 1 * q.val; omega
  · show V c main_arg5 (((cfg0.win 4).blk t).view.emb (ix2 k q)) = _
    refine congrArg (V c main_arg5) ?_
    funext a; apply Fin.ext
    match a with
    | ⟨0, _⟩ => show win0_4.index t (0 : Fin 2) * 64 + 1 * k.val = k.val; omega
    | ⟨1, _⟩ => show win0_4.index t (1 : Fin 2) * 64 + 1 * q.val = win0_5.index t (1 : Fin 2) * 64 + 1 * q.val; omega

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v24).slice (win0_5.rect t)).set ↔ _
  rw [View.set_slice_whole, Rect.mem_set_unit]
  exact Iff.rfl

/-- The ten output blocks tile the array: row `r` is in the block of point `r / 10000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto0 ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- After the launch its output array is `layer` of the five arrays the launch found. -/
theorem final0 (c : Dev nD) :
    (dat0 V c).arrAt 5 cfg0.N = layer (V c main_v22) (V c main_arg0) (V c main_arg3) (V c main_v23) (V c main_arg5) :=
  (dat0 V c).arrAt_eq_of_cover 5 _ (fun t _ => flushed0 V c t) cover0

end Launch0

/-! ## Launch 1: the second layer -/

section Launch1

/-- Where each window's block sits at grid point `t`, decided over the ten points: the blocks of means, of features and
    of the output are all block `t` of the rows, and the two weight matrices and the bias row are whole. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every one of the ten row blocks is some grid point's output block. -/
theorem idx_onto1 : ∀ q0 : Fin 10, ∃ t : Fin cfg1.N, win1_5.index t = ![q0.val, 0] :=
  (by decide +kernel : ∀ q0 : Fin 10, ∃ t : Fin grid1.N, win1_5.index t = ![q0.val, 0])

/-- What grid point `t` writes back is block `t` of `layer` of the five arrays as the launch finds them: row `p` of
    the point's blocks of means and features is row `10000·t + p` of the arrays, and the weights and the bias are read
    whole. -/
theorem flushed1 (c : Dev nD) (t : Fin cfg1.N) :
    (dat1 V c).flushed 5 t = ((cfg1.win 5).blk t).view.read (Elt Ideal)
      (layer (V c main_v43) (V c main_v24) (V c main_arg6) (V c main_v44) (V c main_arg8)) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e51⟩ := idx_facts1 t
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (iblk1 V c 4 t) (iblk1 V c 3 t) (ix2 p q)
    = layer (V c main_v43) (V c main_v24) (V c main_arg6) (V c main_v44) (V c main_arg8) (((cfg1.win 5).blk t).view.emb (ix2 p q))
  rw [pay1_apply]
  unfold layer
  refine entry_congr _ _ _ _ _ _ _ _ _ _ p _ q _ (fun k => ?_) (fun k => ?_) (fun k => ?_) ?_ (fun k => ?_)
  · show V c main_v43 (((cfg1.win 0).blk t).view.emb (ix2 p k)) = _
    refine congrArg (V c main_v43) ?_
    funext a; apply Fin.ext
    match a with
    | ⟨0, _⟩ => show win1_0.index t (0 : Fin 2) * 10000 + 1 * p.val = win1_5.index t (0 : Fin 2) * 10000 + 1 * p.val; omega
    | ⟨1, _⟩ => show win1_0.index t (1 : Fin 2) * 64 + 1 * k.val = k.val; omega
  · show V c main_v24 (((cfg1.win 1).blk t).view.emb (ix2 p k)) = _
    refine congrArg (V c main_v24) ?_
    funext a; apply Fin.ext
    match a with
    | ⟨0, _⟩ => show win1_1.index t (0 : Fin 2) * 10000 + 1 * p.val = win1_5.index t (0 : Fin 2) * 10000 + 1 * p.val; omega
    | ⟨1, _⟩ => show win1_1.index t (1 : Fin 2) * 64 + 1 * k.val = k.val; omega
  · show V c main_arg6 (((cfg1.win 2).blk t).view.emb (ix2 k q)) = _
    refine congrArg (V c main_arg6) ?_
    funext a; apply Fin.ext
    match a with
    | ⟨0, _⟩ => show win1_2.index t (0 : Fin 2) * 64 + 1 * k.val = k.val; omega
    | ⟨1, _⟩ => show win1_2.index t (1 : Fin 2) * 64 + 1 * q.val = win1_5.index t (1 : Fin 2) * 64 + 1 * q.val; omega
  · show V c main_v44 (((cfg1.win 3).blk t).view.emb (ix2 (0 : Fin 1) q)) = _
    refine congrArg (V c main_v44) ?_
    funext a; apply Fin.ext
    match a with
    | ⟨0, _⟩ => show win1_3.index t (0 : Fin 2) * 1 + 1 * 0 = 0; omega
    | ⟨1, _⟩ => show win1_3.index t (1 : Fin 2) * 64 + 1 * q.val = win1_5.index t (1 : Fin 2) * 64 + 1 * q.val; omega
  · show V c main_arg8 (((cfg1.win 4).blk t).view.emb (ix2 k q)) = _
    refine congrArg (V c main_arg8) ?_
    funext a; apply Fin.ext
    match a with
    | ⟨0, _⟩ => show win1_4.index t (0 : Fin 2) * 64 + 1 * k.val = k.val; omega
    | ⟨1, _⟩ => show win1_4.index t (1 : Fin 2) * 64 + 1 * q.val = win1_5.index t (1 : Fin 2) * 64 + 1 * q.val; omega

/-- An index of the output array is in point `t`'s block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v45).slice (win1_5.rect t)).set ↔ _
  rw [View.set_slice_whole, Rect.mem_set_unit]
  exact Iff.rfl

/-- The ten output blocks tile the array: row `r` is in the block of point `r / 10000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- After the launch its output array is `layer` of the five arrays the launch found. -/
theorem final1 (c : Dev nD) :
    (dat1 V c).arrAt 5 cfg1.N = layer (V c main_v43) (V c main_v24) (V c main_arg6) (V c main_v44) (V c main_arg8) :=
  (dat1 V c).arrAt_eq_of_cover 5 _ (fun t _ => flushed1 V c t) cover1

end Launch1

end Cert.KernelIdeal.Sage

end
-- ==== Proof.MlpBody.lean ====
/-
  One grid point of the pair scorer, as arithmetic on the extended reals.

  A grid point holds a block of 10000 rows of concatenated pair features `hp` (10000 × 128), the first weight matrix
  `W1` (128 × 64) with its bias row `b1` (1 × 64), the second weight matrix `W2` (64 × 1) with its bias `b2` (1 × 1),
  and stores

      hidden[p, k] = max ( Σ_l hp[p, l] · W1[l, k] + b1[0, k] , 0 )
      out[p, u]    = Σ_k hidden[p, k] · W2[k, u] + b2[0, u].

  The body narrows the operands of both products to bf16; on the extended reals that is the identity, and each
  `tpu.matmul` into a zero accumulator is the plain sum over its one contracted axis.
-/
import proofs.«172939_j24696061952120_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Mlp

open Cert.KernelIdeal Cert.KernelIdeal.Gen Idealize.ShloMosaic Idealize.ShloMosaic.ValueIdx
open scoped BigOperators

/-- The dimension numbers of a (10000 × 128) · (128 × 64) product: the left operand's columns against the right
    operand's rows. -/
local notation "D128" => dot_S10000x128_S128x64_S10000x64_1_0_0_1_n_n

theorem first_lhs_row (i : S10000x64.Idx) (r : (D128).contr.Idx) : ((D128).lhsIdx i r 0).val = (i 0).val := by
  unfold DotDims.lhsIdx
  rw [dif_neg (show ¬(0 : Fin S10000x128.rank) ∈ (D128).lhsBatch by decide),
    dif_pos (show (0 : Fin S10000x128.rank) ∈ (D128).lhsNonContracting by decide)]
  rfl

theorem first_lhs_col (i : S10000x64.Idx) (r : (D128).contr.Idx) : ((D128).lhsIdx i r 1).val = (r ⟨0, by decide⟩).val :=
  (D128).lhsIdx_val_of_single rfl i r

theorem first_rhs_row (i : S10000x64.Idx) (r : (D128).contr.Idx) : ((D128).rhsIdx i r 0).val = (r ⟨0, by decide⟩).val :=
  (D128).rhsIdx_val_of_single rfl i r

theorem first_rhs_col (i : S10000x64.Idx) (r : (D128).contr.Idx) : ((D128).rhsIdx i r 1).val = (i 1).val := by
  unfold DotDims.rhsIdx
  rw [dif_neg (show ¬(1 : Fin S128x64.rank) ∈ (D128).rhsBatch by decide),
    dif_pos (show (1 : Fin S128x64.rank) ∈ (D128).rhsNonContracting by decide)]
  rfl

/-- That product, accumulated from zero, is the plain sum over the shared axis. -/
theorem first_zero_apply {φ₁ φ₂ : FTy} (l : FVec Ideal S10000x128 φ₁) (r : FVec Ideal S128x64 φ₂) (p : Fin 10000) (q : Fin 64) :
    matmul D128 none l r (constant S10000x64 .f32 0x00000000#32) (ix2 p q) = ∑ k : Fin 128, l (ix2 p k) * r (ix2 k q) := by
  simp only [matmul]
  rw [Ideal.matmul_constant_zero_apply, ← Equiv.sum_comp (contrEquiv1 D128 128 rfl rfl).symm]
  refine Finset.sum_congr rfl fun k _ => ?_
  have hk := contrEquiv1_symm_val D128 128 rfl rfl k
  have el : (D128).lhsIdx (ix2 p q) ((contrEquiv1 D128 128 rfl rfl).symm k) = ix2 p k := funext fun a => Fin.ext (by
    match a with
    | ⟨0, _⟩ => exact first_lhs_row _ _
    | ⟨1, _⟩ => exact (first_lhs_col _ _).trans hk)
  have er : (D128).rhsIdx (ix2 p q) ((contrEquiv1 D128 128 rfl rfl).symm k) = ix2 k q := funext fun a => Fin.ext (by
    match a with
    | ⟨0, _⟩ => exact (first_rhs_row _ _).trans hk
    | ⟨1, _⟩ => exact first_rhs_col _ _)
  rw [el, er]

/-- The dimension numbers of a (10000 × 64) · (64 × 1) product: the left operand's columns against the right
    operand's rows. -/
local notation "D1" => dot_S10000x64_S64x1_S10000x1_1_0_0_1_n_n

theorem second_lhs_row (i : S10000x1.Idx) (r : (D1).contr.Idx) : ((D1).lhsIdx i r 0).val = (i 0).val := by
  unfold DotDims.lhsIdx
  rw [dif_neg (show ¬(0 : Fin S10000x64.rank) ∈ (D1).lhsBatch by decide),
    dif_pos (show (0 : Fin S10000x64.rank) ∈ (D1).lhsNonContracting by decide)]
  rfl

theorem second_lhs_col (i : S10000x1.Idx) (r : (D1).contr.Idx) : ((D1).lhsIdx i r 1).val = (r ⟨0, by decide⟩).val :=
  (D1).lhsIdx_val_of_single rfl i r

theorem second_rhs_row (i : S10000x1.Idx) (r : (D1).contr.Idx) : ((D1).rhsIdx i r 0).val = (r ⟨0, by decide⟩).val :=
  (D1).rhsIdx_val_of_single rfl i r

theorem second_rhs_col (i : S10000x1.Idx) (r : (D1).contr.Idx) : ((D1).rhsIdx i r 1).val = (i 1).val := by
  unfold DotDims.rhsIdx
  rw [dif_neg (show ¬(1 : Fin S64x1.rank) ∈ (D1).rhsBatch by decide),
    dif_pos (show (1 : Fin S64x1.rank) ∈ (D1).rhsNonContracting by decide)]
  rfl

/-- That product, accumulated from zero, is the plain sum over the shared axis. -/
theorem second_zero_apply {φ₁ φ₂ : FTy} (l : FVec Ideal S10000x64 φ₁) (r : FVec Ideal S64x1 φ₂) (p : Fin 10000) (q : Fin 1) :
    matmul D1 none l r (constant S10000x1 .f32 0x00000000#32) (ix2 p q) = ∑ k : Fin 64, l (ix2 p k) * r (ix2 k q) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : (D1).lhsIdx (ix2 p q) ((contrEquiv1 D1 64 rfl rfl).symm k) = ix2 p k := funext fun a => Fin.ext (by
    match a with
    | ⟨0, _⟩ => exact second_lhs_row _ _
    | ⟨1, _⟩ => exact (second_lhs_col _ _).trans hk)
  have er : (D1).rhsIdx (ix2 p q) ((contrEquiv1 D1 64 rfl rfl).symm k) = ix2 k q := funext fun a => Fin.ext (by
    match a with
    | ⟨0, _⟩ => exact (second_rhs_row _ _).trans hk
    | ⟨1, _⟩ => exact second_rhs_col _ _)
  rw [el, er]

/-- One entry of the hidden layer, from `n` rows of pair features: the same formula for a block of rows and for the
    whole array. -/
def hidden {n : ℕ} (hp : (⟨2, ![n, 128]⟩ : Shape).Idx → EReal) (W1 : S128x64.Idx → EReal) (b1 : S1x64.Idx → EReal)
    (p : Fin n) (k : Fin 64) : EReal :=
  max ((∑ l : Fin 128, hp (ix2 p l) * W1 (ix2 l k)) + b1 (ix2 (0 : Fin 1) k)) (Ideal.ofBits .f32 0x00000000#32)

/-- One pair's score. -/
def score {n : ℕ} (hp : (⟨2, ![n, 128]⟩ : Shape).Idx → EReal) (W1 : S128x64.Idx → EReal) (b1 : S1x64.Idx → EReal)
    (W2 : S64x1.Idx → EReal) (b2 : S1x1.Idx → EReal) (p : Fin n) (u : Fin 1) : EReal :=
  (∑ k : Fin 64, hidden hp W1 b1 p k * W2 (ix2 k u)) + b2 (ix2 (0 : Fin 1) u)

/-- `score` depends on its operands only through row `p` of the pair features; the weights and biases are read whole. -/
theorem score_congr {n n' : ℕ} (hp : (⟨2, ![n, 128]⟩ : Shape).Idx → EReal) (hp' : (⟨2, ![n', 128]⟩ : Shape).Idx → EReal)
    (W1 : S128x64.Idx → EReal) (b1 : S1x64.Idx → EReal) (W2 : S64x1.Idx → EReal) (b2 : S1x1.Idx → EReal)
    (p : Fin n) (p' : Fin n') (u u' : Fin 1) (hrow : ∀ l : Fin 128, hp (ix2 p l) = hp' (ix2 p' l)) :
    score hp W1 b1 W2 b2 p u = score hp' W1 b1 W2 b2 p' u' := by
  obtain rfl : u = u' := Subsingleton.elim _ _
  unfold score hidden
  simp only [hrow]

/-- The scorer's body stores `score` of its loaded blocks. -/
theorem pay2_apply (v0 : Vec Ideal S10000x128 .f32) (v3 : Vec Ideal S128x64 .f32) (v5 : Vec Ideal S64x1 .f32)
    (v8 : Vec Ideal S1x64 .f32) (v16 : Vec Ideal S1x1 .f32) (p : Fin 10000) (u : Fin 1) :
    k2_pay1 v0 v3 v5 v8 v16 (ix2 p u) = score v0 v3 v8 v5 v16 p u := by
  unfold k2_pay1 score hidden
  rw [addf_apply, second_zero_apply, broadcastTo_1b_ab_apply]
  simp only [truncf_apply, maximumf_apply, addf_apply, first_zero_apply, broadcastTo_1b_ab_apply, shapeCast_self, broadcast_apply]
  rfl

end Cert.KernelIdeal.Mlp

end
-- ==== Proof.MlpRegion.lean ====
/-
  The pair-scoring launch, as one function of whole arrays.

  The launch runs its body at fifty grid points; point `t` sees rows 10000·t … 10000·t + 9999 of the concatenated pair
  features, the two weight matrices and the two biases whole, and writes back rows 10000·t … of the scores. The fifty
  output blocks tile the 500000 rows, so after the launch the output array is, entry by entry,

      scores hp W1 b1 W2 b2 (r, u) = Σ_k max ( Σ_l hp[r, l] · W1[l, k] + b1[0, k] , 0 ) · W2[k, u] + b2[0, u]

  of the arrays as the launch found them, at an arbitrary memory `V` at the launch's entry.
-/
import proofs.«172939_j24696061952120_1_alg».proof.Proof.Gen.KernelIdeal.Frame
import proofs.«172939_j24696061952120_1_alg».proof.Proof.MlpBody

set_option maxRecDepth 16384

noncomputable section

namespace Cert.KernelIdeal.Mlp

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The whole array of scores from the whole array of pair features and the four parameter arrays. -/
def scores (hp : S500000x128.Idx → EReal) (W1 : S128x64.Idx → EReal) (b1 : S1x64.Idx → EReal) (W2 : S64x1.Idx → EReal)
    (b2 : S1x1.Idx → EReal) : S500000x1.Idx → EReal :=
  fun i => score hp W1 b1 W2 b2 (i 0) (i 1)

theorem hz : (![0, 0] : Fin 2 → Nat) = fun _ => 0 := funext fun a => by fin_cases a <;> rfl

/-- Where the blocks sit at grid point `t`, decided over the fifty points: the block of pair features and the output
    block are both block `t` of the rows. -/
theorem idx_facts : ∀ t : Fin cfg2.N,
    win2_0.index t (0 : Fin 2) = win2_5.index t (0 : Fin 2) ∧ win2_0.index t (1 : Fin 2) = 0
    ∧ win2_5.index t (1 : Fin 2) = 0 :=
  (by decide +kernel : ∀ t : Fin grid2.N, _)

/-- The parameters' windows are whole at every point. -/
theorem idx_whole : ∀ t : Fin cfg2.N,
    (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0) :=
  (by decide +kernel : ∀ t : Fin grid2.N, _)

/-- Every one of the fifty row blocks is some grid point's output block. -/
theorem idx_onto : ∀ q0 : Fin 50, ∃ t : Fin cfg2.N, win2_5.index t = ![q0.val, 0] :=
  (by decide +kernel : ∀ q0 : Fin 50, ∃ t : Fin grid2.N, win2_5.index t = ![q0.val, 0])

/-- A parameter window's block at any point is the whole array. -/
theorem whole1 (c : Dev nD) (t : Fin cfg2.N) : iblk2 V c 1 t = V c main_arg9 := by
  obtain ⟨⟨e0, e1⟩, -, -, -⟩ := idx_whole t
  funext y
  show V c main_arg9 (((cfg2.win 1).blk t).view.emb y) = _
  refine congrArg (V c main_arg9) ?_
  funext a; apply Fin.ext
  match a with
  | ⟨0, _⟩ => show win2_1.index t (0 : Fin 2) * 128 + 1 * (y 0).val = (y 0).val; omega
  | ⟨1, _⟩ => show win2_1.index t (1 : Fin 2) * 64 + 1 * (y 1).val = (y 1).val; omega

theorem whole2 (c : Dev nD) (t : Fin cfg2.N) : iblk2 V c 2 t = V c main_v65 := by
  obtain ⟨-, ⟨e0, e1⟩, -, -⟩ := idx_whole t
  funext y
  show V c main_v65 (((cfg2.win 2).blk t).view.emb y) = _
  refine congrArg (V c main_v65) ?_
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

theorem whole3 (c : Dev nD) (t : Fin cfg2.N) : iblk2 V c 3 t = V c main_arg11 := by
  obtain ⟨-, -, ⟨e0, e1⟩, -⟩ := idx_whole t
  funext y
  show V c main_arg11 (((cfg2.win 3).blk t).view.emb y) = _
  refine congrArg (V c main_arg11) ?_
  funext a; apply Fin.ext
  match a with
  | ⟨0, _⟩ => show win2_3.index t (0 : Fin 2) * 64 + 1 * (y 0).val = (y 0).val; omega
  | ⟨1, _⟩ => show win2_3.index t (1 : Fin 2) * 1 + 1 * (y 1).val = (y 1).val; omega

theorem whole4 (c : Dev nD) (t : Fin cfg2.N) : iblk2 V c 4 t = V c main_v66 := by
  obtain ⟨-, -, -, ⟨e0, e1⟩⟩ := idx_whole t
  funext y
  show V c main_v66 (((cfg2.win 4).blk t).view.emb y) = _
  refine congrArg (V c main_v66) ?_
  funext a; apply Fin.ext
  match a with
  | ⟨0, _⟩ => show win2_4.index t (0 : Fin 2) * 1 + 1 * (y 0).val = (y 0).val; omega
  | ⟨1, _⟩ => show win2_4.index t (1 : Fin 2) * 1 + 1 * (y 1).val = (y 1).val; omega

/-- What grid point `t` writes back is block `t` of `scores` of the five arrays as the launch finds them: row `p` of the
    point's block of pair features is row `10000·t + p` of the array. -/
theorem flushed (c : Dev nD) (t : Fin cfg2.N) :
    (dat2 V c).flushed 5 t = ((cfg2.win 5).blk t).view.read (Elt Ideal)
      (scores (V c main_v64) (V c main_arg9) (V c main_v65) (V c main_arg11) (V c main_v66)) := by
  show (cfg2.win 5).cut (grid2.coords t) ((dat2 V c).after 5 t) = _
  rw [after2_5]
  unfold out2_5
  rw [View.canon_unit_zero hz]
  simp only [View.ld_unit_zero (S := S10000x128) hz, View.ld_unit_zero (S := S128x64) hz, View.ld_unit_zero (S := S1x64) hz,
    View.ld_unit_zero (S := S64x1) hz, View.ld_unit_zero (S := S1x1) hz]
  rw [whole1, whole2, whole3, whole4]
  obtain ⟨e00, e01, e51⟩ := idx_facts t
  funext j
  obtain ⟨p, u, rfl⟩ : ∃ (p : Fin 10000) (u : Fin 1), j = ix2 p u := ⟨j 0, j 1, eq_ix2 j⟩
  show k2_pay1 (iblk2 V c 0 t) (V c main_arg9) (V c main_arg11) (V c main_v65) (V c main_v66) (ix2 p u)
    = scores (V c main_v64) (V c main_arg9) (V c main_v65) (V c main_arg11) (V c main_v66) (((cfg2.win 5).blk t).view.emb (ix2 p u))
  rw [pay2_apply]
  unfold scores
  refine score_congr _ _ _ _ _ _ p _ u _ (fun l => ?_)
  show V c main_v64 (((cfg2.win 0).blk t).view.emb (ix2 p l)) = _
  refine congrArg (V c main_v64) ?_
  funext a; apply Fin.ext
  match a with
  | ⟨0, _⟩ => show win2_0.index t (0 : Fin 2) * 10000 + 1 * p.val = win2_5.index t (0 : Fin 2) * 10000 + 1 * p.val; omega
  | ⟨1, _⟩ => show win2_0.index t (1 : Fin 2) * 128 + 1 * l.val = l.val; omega

/-- An index of the output array is in point `t`'s block iff each coordinate is in the block's range on its axis. -/
theorem mem_blk (t : Fin cfg2.N) (i : S500000x1.Idx) :
    i ∈ ((cfg2.win 5).blk t).view.set ↔ ∀ a : Fin 2, win2_5.index t a * S10000x1.size a ≤ (i a).val
      ∧ (i a).val < win2_5.index t a * S10000x1.size a + S10000x1.size a := by
  show i ∈ ((View.whole main_v67).slice (win2_5.rect t)).set ↔ _
  rw [View.set_slice_whole, Rect.mem_set_unit]
  exact Iff.rfl

/-- The fifty output blocks tile the array: row `r` is in the block of point `r / 10000`. -/
theorem cover (i : S500000x1.Idx) :
    ∃ t : Fin cfg2.N, (cfg2.win 5).flush t = true ∧ i ∈ ((cfg2.win 5).blk t).view.set := by
  have hi0 : (i 0).val < 500000 := (i 0).isLt
  have hi1 : (i 1).val < 1 := (i 1).isLt
  obtain ⟨t, ht⟩ := idx_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 1 ≤ (i 1).val ∧ (i 1).val < win2_5.index t (1 : Fin 2) * 1 + 1; omega

/-- After the launch its output array is `scores` of the five arrays the launch found. -/
theorem final (c : Dev nD) :
    (dat2 V c).arrAt 5 cfg2.N = scores (V c main_v64) (V c main_arg9) (V c main_v65) (V c main_arg11) (V c main_v66) :=
  (dat2 V c).arrAt_eq_of_cover 5 _ (fun t _ => flushed V c t) cover

end Cert.KernelIdeal.Mlp

end
-- ==== Proof.HostChain.lean ====
/-
  The three stretches of host operations, from any memory.

  Between its launches the kernel program runs plain host operations: before the first launch it aggregates the node
  features over the edges (gather the source rows, add them into the destination rows, count the edges into each
  destination, divide by the count clamped below by one) and views the first bias as a one-row matrix; before the second
  it aggregates the first layer's output in the same way; before the third it gathers the second layer's output at
  both ends of every pair and concatenates the two. The reference runs the very same operations on its own stages, so
  each result is the reference's stage of the same name, whatever memory `W` the stretch starts from, as soon as `W`
  holds the reference's values at the buffers the stretch reads. Every other buffer the stretch leaves as it found it.
-/
import proofs.«172939_j24696061952120_1_alg».proof.Proof.Gen.KernelIdeal.Launch
import proofs.«172939_j24696061952120_1_alg».proof.Proof.Gen.ReferenceIdeal.Read

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo

/-! ## Before the first launch -/

/-- The edge sources, as the reference reads them off the edge list. -/
theorem src (W : Valuation τ sig (Elt Ideal)) :
    StableHlo.after (hostOps0 (F := Ideal)) W (Proc.devRef .tc main_v1) = Cert.ReferenceIdeal.Read.val_main_v1 (F := Ideal) (W (Proc.devRef .tc main_arg1)) := by
  after_results_simp
  rfl

/-- The edge destinations. -/
theorem dst (W : Valuation τ sig (Elt Ideal)) :
    StableHlo.after (hostOps0 (F := Ideal)) W (Proc.devRef .tc main_v3) = Cert.ReferenceIdeal.Read.val_main_v3 (F := Ideal) (W (Proc.devRef .tc main_arg1)) := by
  after_results_simp
  rfl

/-- The node features' neighbour means. -/
theorem mean1 (W : Valuation τ sig (Elt Ideal)) :
    StableHlo.after (hostOps0 (F := Ideal)) W (Proc.devRef .tc main_v22)
      = Cert.ReferenceIdeal.Read.val_main_v22 (F := Ideal) (W (Proc.devRef .tc main_arg0)) (W (Proc.devRef .tc main_arg1)) := by
  after_results_simp
  rfl

/-- The first bias as a one-row matrix. -/
theorem bias1 (W : Valuation τ sig (Elt Ideal)) :
    StableHlo.after (hostOps0 (F := Ideal)) W (Proc.devRef .tc main_v23) = shapeCast S1x64 (W (Proc.devRef .tc main_arg4)) shapeCasts_S64_S1x64 := by
  after_results_simp
  rfl

theorem keep0_main_arg0 (W : Valuation τ sig (Elt Ideal)) :
    StableHlo.after (hostOps0 (F := Ideal)) W (Proc.devRef .tc main_arg0) = W (Proc.devRef .tc main_arg0) := by
  after_results_simp <;> rfl

theorem keep0_main_arg2 (W : Valuation τ sig (Elt Ideal)) :
    StableHlo.after (hostOps0 (F := Ideal)) W (Proc.devRef .tc main_arg2) = W (Proc.devRef .tc main_arg2) := by
  after_results_simp <;> rfl

theorem keep0_main_arg3 (W : Valuation τ sig (Elt Ideal)) :
    StableHlo.after (hostOps0 (F := Ideal)) W (Proc.devRef .tc main_arg3) = W (Proc.devRef .tc main_arg3) := by
  after_results_simp <;> rfl

theorem keep0_main_arg5 (W : Valuation τ sig (Elt Ideal)) :
    StableHlo.after (hostOps0 (F := Ideal)) W (Proc.devRef .tc main_arg5) = W (Proc.devRef .tc main_arg5) := by
  after_results_simp <;> rfl

theorem keep0_main_arg6 (W : Valuation τ sig (Elt Ideal)) :
    StableHlo.after (hostOps0 (F := Ideal)) W (Proc.devRef .tc main_arg6) = W (Proc.devRef .tc main_arg6) := by
  after_results_simp <;> rfl

theorem keep0_main_arg7 (W : Valuation τ sig (Elt Ideal)) :
    StableHlo.after (hostOps0 (F := Ideal)) W (Proc.devRef .tc main_arg7) = W (Proc.devRef .tc main_arg7) := by
  after_results_simp <;> rfl

theorem keep0_main_arg8 (W : Valuation τ sig (Elt Ideal)) :
    StableHlo.after (hostOps0 (F := Ideal)) W (Proc.devRef .tc main_arg8) = W (Proc.devRef .tc main_arg8) := by
  after_results_simp <;> rfl

theorem keep0_main_arg9 (W : Valuation τ sig (Elt Ideal)) :
    StableHlo.after (hostOps0 (F := Ideal)) W (Proc.devRef .tc main_arg9) = W (Proc.devRef .tc main_arg9) := by
  after_results_simp <;> rfl

theorem keep0_main_arg10 (W : Valuation τ sig (Elt Ideal)) :
    StableHlo.after (hostOps0 (F := Ideal)) W (Proc.devRef .tc main_arg10) = W (Proc.devRef .tc main_arg10) := by
  after_results_simp <;> rfl

theorem keep0_main_arg11 (W : Valuation τ sig (Elt Ideal)) :
    StableHlo.after (hostOps0 (F := Ideal)) W (Proc.devRef .tc main_arg11) = W (Proc.devRef .tc main_arg11) := by
  after_results_simp <;> rfl

theorem keep0_main_arg12 (W : Valuation τ sig (Elt Ideal)) :
    StableHlo.after (hostOps0 (F := Ideal)) W (Proc.devRef .tc main_arg12) = W (Proc.devRef .tc main_arg12) := by
  after_results_simp <;> rfl

/-! ## Before the second launch -/

/-- The first layer's neighbour means: the same aggregation, of the first layer's output. -/
theorem mean2 (W : Valuation τ sig (Elt Ideal))
    (x0 : (⟨S100000x64, .f32⟩ : BufTy).Contents (Elt Ideal)) (x1 : (⟨S2x1280000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal))
    (hsrc : W (Proc.devRef .tc main_v1) = Cert.ReferenceIdeal.Read.val_main_v1 (F := Ideal) x1)
    (hdst : W (Proc.devRef .tc main_v3) = Cert.ReferenceIdeal.Read.val_main_v3 (F := Ideal) x1)
    (hh : W (Proc.devRef .tc main_v24) = Cert.ReferenceIdeal.Read.val_main_v29 (F := Ideal) x0 x1 x3 x4 x5) :
    StableHlo.after (hostOps1 (F := Ideal)) W (Proc.devRef .tc main_v43) = Cert.ReferenceIdeal.Read.val_main_v48 (F := Ideal) x0 x1 x3 x4 x5 := by
  after_results_simp
  rw [hsrc, hdst, hh]
  rfl

/-- The second bias as a one-row matrix. -/
theorem bias2 (W : Valuation τ sig (Elt Ideal)) :
    StableHlo.after (hostOps1 (F := Ideal)) W (Proc.devRef .tc main_v44) = shapeCast S1x64 (W (Proc.devRef .tc main_arg7)) shapeCasts_S64_S1x64 := by
  after_results_simp
  rfl

theorem keep1_main_v24 (W : Valuation τ sig (Elt Ideal)) :
    StableHlo.after (hostOps1 (F := Ideal)) W (Proc.devRef .tc main_v24) = W (Proc.devRef .tc main_v24) := by
  after_results_simp <;> rfl

theorem keep1_main_arg2 (W : Valuation τ sig (Elt Ideal)) :
    StableHlo.after (hostOps1 (F := Ideal)) W (Proc.devRef .tc main_arg2) = W (Proc.devRef .tc main_arg2) := by
  after_results_simp <;> rfl

theorem keep1_main_arg6 (W : Valuation τ sig (Elt Ideal)) :
    StableHlo.after (hostOps1 (F := Ideal)) W (Proc.devRef .tc main_arg6) = W (Proc.devRef .tc main_arg6) := by
  after_results_simp <;> rfl

theorem keep1_main_arg8 (W : Valuation τ sig (Elt Ideal)) :
    StableHlo.after (hostOps1 (F := Ideal)) W (Proc.devRef .tc main_arg8) = W (Proc.devRef .tc main_arg8) := by
  after_results_simp <;> rfl

theorem keep1_main_arg9 (W : Valuation τ sig (Elt Ideal)) :
    StableHlo.after (hostOps1 (F := Ideal)) W (Proc.devRef .tc main_arg9) = W (Proc.devRef .tc main_arg9) := by
  after_results_simp <;> rfl

theorem keep1_main_arg10 (W : Valuation τ sig (Elt Ideal)) :
    StableHlo.after (hostOps1 (F := Ideal)) W (Proc.devRef .tc main_arg10) = W (Proc.devRef .tc main_arg10) := by
  after_results_simp <;> rfl

theorem keep1_main_arg11 (W : Valuation τ sig (Elt Ideal)) :
    StableHlo.after (hostOps1 (F := Ideal)) W (Proc.devRef .tc main_arg11) = W (Proc.devRef .tc main_arg11) := by
  after_results_simp <;> rfl

theorem keep1_main_arg12 (W : Valuation τ sig (Elt Ideal)) :
    StableHlo.after (hostOps1 (F := Ideal)) W (Proc.devRef .tc main_arg12) = W (Proc.devRef .tc main_arg12) := by
  after_results_simp <;> rfl

/-! ## Before the third launch -/

/-- Two arrays of pair-end features side by side: columns 0 … 63 from the first, 64 … 127 from the second. -/
def sideBySide (a b : (⟨S500000x64, .f32⟩ : BufTy).Contents (Elt Ideal)) : (⟨S500000x128, .f32⟩ : BufTy).Contents (Elt Ideal) :=
  concatenate S500000x128 1 [⟨S500000x64, a⟩, ⟨S500000x64, b⟩] concatenates_S500000x64_S500000x64_S500000x128_d1

/-- The concatenated pair features: the second layer's output at both ends of every pair. -/
theorem pairs (W : Valuation τ sig (Elt Ideal))
    (x0 : (⟨S100000x64, .f32⟩ : BufTy).Contents (Elt Ideal)) (x1 : (⟨S2x1280000, .i32⟩ : BufTy).Contents (Elt Ideal))
    (x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 : (⟨S64x64, .f32⟩ : BufTy).Contents (Elt Ideal))
    (hh : W (Proc.devRef .tc main_v45) = Cert.ReferenceIdeal.Read.val_main_v55 (F := Ideal) x0 x1 x3 x4 x5 x6 x7 x8) :
    StableHlo.after (hostOps2 (F := Ideal)) W (Proc.devRef .tc main_v64)
      = Cert.ReferenceIdeal.Read.val_main_v74 (F := Ideal) x0 x1 (W (Proc.devRef .tc main_arg2)) x3 x4 x5 x6 x7 x8 := by
  after_results_simp
  change sideBySide _ _ = _
  after_results_simp
  rw [hh]
  rfl

/-- The scorer's first bias as a one-row matrix. -/
theorem bias3 (W : Valuation τ sig (Elt Ideal)) :
    StableHlo.after (hostOps2 (F := Ideal)) W (Proc.devRef .tc main_v65) = shapeCast S1x64 (W (Proc.devRef .tc main_arg10)) shapeCasts_S64_S1x64 := by
  after_results_simp
  rfl

/-- The scorer's second bias as a one-by-one matrix. -/
theorem bias4 (W : Valuation τ sig (Elt Ideal)) :
    StableHlo.after (hostOps2 (F := Ideal)) W (Proc.devRef .tc main_v66) = shapeCast S1x1 (W (Proc.devRef .tc main_arg12)) shapeCasts_S1_S1x1 := by
  after_results_simp
  rfl

theorem keep2_main_arg9 (W : Valuation τ sig (Elt Ideal)) :
    StableHlo.after (hostOps2 (F := Ideal)) W (Proc.devRef .tc main_arg9) = W (Proc.devRef .tc main_arg9) := by
  after_results_simp <;> rfl

theorem keep2_main_arg11 (W : Valuation τ sig (Elt Ideal)) :
    StableHlo.after (hostOps2 (F := Ideal)) W (Proc.devRef .tc main_arg11) = W (Proc.devRef .tc main_arg11) := by
  after_results_simp <;> rfl

end Cert.KernelIdeal.HostChain

end
-- ==== Proof.RefBridge.lean ====
/-
  The reference's layers are the kernel's whole-array functions.

  The reference computes each SAGE layer as relu ( (mean · Wl + b) + x · Wr ) with two `dot_general`s, a bias broadcast
  down the rows and a maximum with zero, and the pair scorer as relu ( hp · W1 + b1 ) · W2 + b2. Read at an index, a
  `dot_general` with one contracted axis is the sum over that axis of the operands' products; the bias, a vector
  broadcast first to one row and then down the rows, contributes its entry at the column; the maximum and the sums are
  those of the extended reals. That is, entry by entry, `Sage.layer` and `Mlp.scores` of the stage before, with the bias
  vector viewed as a one-row matrix (which is how the kernel program passes it to its launches).
-/
import proofs.«172939_j24696061952120_1_alg».proof.Proof.Gen.ReferenceIdeal.Read
import proofs.«172939_j24696061952120_1_alg».proof.Proof.SageRegion
import proofs.«172939_j24696061952120_1_alg».proof.Proof.MlpRegion

set_option maxRecDepth 16384

noncomputable section

namespace Cert.RefBridge

open Cert.ReferenceIdeal Cert.ReferenceIdeal.Read Idealize.ShloMosaic Idealize.ShloMosaic.ValueIdx
open scoped BigOperators

/-- The first layer. -/
theorem layer1 (x0 : (⟨S100000x64, .f32⟩ : BufTy).Contents (Elt Ideal)) (x1 : (⟨S2x1280000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (hb : S64.ShapeCasts S1x64) :
    Cert.KernelIdeal.Sage.layer (val_main_v22 (F := Ideal) x0 x1) x0 x3 (shapeCast S1x64 x4 hb) x5
      = val_main_v29 (F := Ideal) x0 x1 x3 x4 x5 := by
  funext i
  obtain ⟨r, q, rfl⟩ : ∃ (r : Fin 100000) (q : Fin 64), i = ix2 r q := ⟨i 0, i 1, eq_ix2 i⟩
  rw [val_main_v29_apply, val_main_v28_apply, val_main_v26_apply, val_main_v23_apply, val_main_v25_apply, val_main_v24_apply,
    val_main_v27_apply, val_main_call0_v0_apply, val_main_call0_cst_apply]
  have eL : ∀ k : Fin 64, lidx_main_v23 (ix2 r q) k = ix2 r k := fun k => funext fun a => Fin.ext (by
    match a with | ⟨0, _⟩ => rfl | ⟨1, _⟩ => rfl)
  have eR : ∀ k : Fin 64, ridx_main_v23 (ix2 r q) k = ix2 k q := fun k => funext fun a => Fin.ext (by
    match a with | ⟨0, _⟩ => rfl | ⟨1, _⟩ => rfl)
  have eL' : ∀ k : Fin 64, lidx_main_v27 (ix2 r q) k = ix2 r k := fun k => funext fun a => Fin.ext (by
    match a with | ⟨0, _⟩ => rfl | ⟨1, _⟩ => rfl)
  have eR' : ∀ k : Fin 64, ridx_main_v27 (ix2 r q) k = ix2 k q := fun k => funext fun a => Fin.ext (by
    match a with | ⟨0, _⟩ => rfl | ⟨1, _⟩ => rfl)
  have eb : idx_main_v24 (idx_main_v25 (ix2 r q)) = ix1 q := funext fun a => Fin.ext (by
    match a with | ⟨0, _⟩ => rfl)
  simp only [eL, eR, eL', eR', eb]
  unfold Cert.KernelIdeal.Sage.layer Cert.KernelIdeal.Sage.entry
  rw [shapeCast_a_1a_apply]
  simp only [Ideal.maximumf_def, Ideal.addf_def, Ideal.ofBits_def]

/-- The second layer: its means are aggregated from the first layer's output, which is also its features. -/
theorem layer2 (x0 : (⟨S100000x64, .f32⟩ : BufTy).Contents (Elt Ideal)) (x1 : (⟨S2x1280000, .i32⟩ : BufTy).Contents (Elt Ideal))
    (x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 : (⟨S64x64, .f32⟩ : BufTy).Contents (Elt Ideal)) (hb : S64.ShapeCasts S1x64) :
    Cert.KernelIdeal.Sage.layer (val_main_v48 (F := Ideal) x0 x1 x3 x4 x5) (val_main_v29 (F := Ideal) x0 x1 x3 x4 x5) x6
        (shapeCast S1x64 x7 hb) x8
      = val_main_v55 (F := Ideal) x0 x1 x3 x4 x5 x6 x7 x8 := by
  funext i
  obtain ⟨r, q, rfl⟩ : ∃ (r : Fin 100000) (q : Fin 64), i = ix2 r q := ⟨i 0, i 1, eq_ix2 i⟩
  rw [val_main_v55_apply, val_main_v54_apply, val_main_v52_apply, val_main_v49_apply, val_main_v51_apply, val_main_v50_apply,
    val_main_v53_apply, val_main_call1_v0_apply, val_main_call1_cst_apply]
  have eL : ∀ k : Fin 64, lidx_main_v49 (ix2 r q) k = ix2 r k := fun k => funext fun a => Fin.ext (by
    match a with | ⟨0, _⟩ => rfl | ⟨1, _⟩ => rfl)
  have eR : ∀ k : Fin 64, ridx_main_v49 (ix2 r q) k = ix2 k q := fun k => funext fun a => Fin.ext (by
    match a with | ⟨0, _⟩ => rfl | ⟨1, _⟩ => rfl)
  have eL' : ∀ k : Fin 64, lidx_main_v53 (ix2 r q) k = ix2 r k := fun k => funext fun a => Fin.ext (by
    match a with | ⟨0, _⟩ => rfl | ⟨1, _⟩ => rfl)
  have eR' : ∀ k : Fin 64, ridx_main_v53 (ix2 r q) k = ix2 k q := fun k => funext fun a => Fin.ext (by
    match a with | ⟨0, _⟩ => rfl | ⟨1, _⟩ => rfl)
  have eb : idx_main_v50 (idx_main_v51 (ix2 r q)) = ix1 q := funext fun a => Fin.ext (by
    match a with | ⟨0, _⟩ => rfl)
  simp only [eL, eR, eL', eR', eb]
  unfold Cert.KernelIdeal.Sage.layer Cert.KernelIdeal.Sage.entry
  rw [shapeCast_a_1a_apply]
  simp only [Ideal.maximumf_def, Ideal.addf_def, Ideal.ofBits_def]

/-- One entry of the reference's hidden layer, on the concatenated pair features. -/
theorem hidden_apply (x0 : (⟨S100000x64, .f32⟩ : BufTy).Contents (Elt Ideal)) (x1 : (⟨S2x1280000, .i32⟩ : BufTy).Contents (Elt Ideal))
    (x2 : (⟨S500000x2, .i32⟩ : BufTy).Contents (Elt Ideal))
    (x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S128x64, .f32⟩ : BufTy).Contents (Elt Ideal))
    (x10 : (⟨S64, .f32⟩ : BufTy).Contents (Elt Ideal)) (hb1 : S64.ShapeCasts S1x64) (r : Fin 500000) (k : Fin 64) :
    val_main_v79 (F := Ideal) x0 x1 x2 x3 x4 x5 x6 x7 x8 x9 x10 (ix2 r k)
      = Cert.KernelIdeal.Mlp.hidden (val_main_v74 (F := Ideal) x0 x1 x2 x3 x4 x5 x6 x7 x8) x9 (shapeCast S1x64 x10 hb1) r k := by
  rw [val_main_v79_apply, val_main_v78_apply, val_main_v75_apply, val_main_v77_apply, val_main_v76_apply,
    val_main_call2_v0_apply, val_main_call2_cst_apply]
  have eL : ∀ l : Fin 128, lidx_main_v75 (ix2 r k) l = ix2 r l := fun l => funext fun a => Fin.ext (by
    match a with | ⟨0, _⟩ => rfl | ⟨1, _⟩ => rfl)
  have eR : ∀ l : Fin 128, ridx_main_v75 (ix2 r k) l = ix2 l k := fun l => funext fun a => Fin.ext (by
    match a with | ⟨0, _⟩ => rfl | ⟨1, _⟩ => rfl)
  have eb : idx_main_v76 (idx_main_v77 (ix2 r k)) = ix1 k := funext fun a => Fin.ext (by
    match a with | ⟨0, _⟩ => rfl)
  simp only [eL, eR, eb]
  unfold Cert.KernelIdeal.Mlp.hidden
  rw [shapeCast_a_1a_apply]
  simp only [Ideal.maximumf_def, Ideal.addf_def, Ideal.ofBits_def]

/-- The pair scorer, on the concatenated pair features. -/
theorem scorer (x0 : (⟨S100000x64, .f32⟩ : BufTy).Contents (Elt Ideal)) (x1 : (⟨S2x1280000, .i32⟩ : BufTy).Contents (Elt Ideal))
    (x2 : (⟨S500000x2, .i32⟩ : BufTy).Contents (Elt Ideal))
    (x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S128x64, .f32⟩ : BufTy).Contents (Elt Ideal))
    (x10 : (⟨S64, .f32⟩ : BufTy).Contents (Elt Ideal)) (x11 : (⟨S64x1, .f32⟩ : BufTy).Contents (Elt Ideal))
    (x12 : (⟨S1, .f32⟩ : BufTy).Contents (Elt Ideal)) (hb1 : S64.ShapeCasts S1x64) (hb2 : S1.ShapeCasts S1x1) :
    Cert.KernelIdeal.Mlp.scores (val_main_v74 (F := Ideal) x0 x1 x2 x3 x4 x5 x6 x7 x8) x9 (shapeCast S1x64 x10 hb1) x11
        (shapeCast S1x1 x12 hb2)
      = val_main_v83 (F := Ideal) x0 x1 x2 x3 x4 x5 x6 x7 x8 x9 x10 x11 x12 := by
  funext i
  obtain ⟨r, u, rfl⟩ : ∃ (r : Fin 500000) (u : Fin 1), i = ix2 r u := ⟨i 0, i 1, eq_ix2 i⟩
  obtain rfl : u = 0 := Subsingleton.elim _ _
  rw [val_main_v83_apply, val_main_v80_apply, val_main_v82_apply, val_main_v81_apply]
  have eL : ∀ k : Fin 64, lidx_main_v80 (ix2 r (0 : Fin 1)) k = ix2 r k := fun k => funext fun a => Fin.ext (by
    match a with | ⟨0, _⟩ => rfl | ⟨1, _⟩ => rfl)
  have eR : ∀ k : Fin 64, ridx_main_v80 (ix2 r (0 : Fin 1)) k = ix2 k (0 : Fin 1) := fun k => funext fun a => Fin.ext (by
    match a with | ⟨0, _⟩ => rfl | ⟨1, _⟩ => rfl)
  have eb2 : idx_main_v81 (idx_main_v82 (ix2 r (0 : Fin 1))) = ix1 (0 : Fin 1) := funext fun a => Fin.ext (by
    match a with | ⟨0, _⟩ => rfl)
  simp only [eL, eR, eb2]
  simp only [hidden_apply x0 x1 x2 x3 x4 x5 x6 x7 x8 x9 x10 hb1 r]
  unfold Cert.KernelIdeal.Mlp.scores Cert.KernelIdeal.Mlp.score
  rw [shapeCast_a_1a_apply]
  simp only [Ideal.addf_def]

end Cert.RefBridge

end
-- ==== Proof.KernelValue.lean ====
/-
  The kernel program's result, as the reference's last stage of the launch arguments.

  Walk the program's boundaries from the launch memory. Before the first launch the host has aggregated the node features
  into their neighbour means; the launch's output is then `Sage.layer` of those means, the features and the first
  layer's parameters, which is the reference's first layer. No launch and no later host operation writes the edge
  sources, the edge destinations or any argument, so before the second launch the host aggregates the first layer's
  output exactly as the reference does, and the second launch's output is the reference's second layer. Before the third
  launch the host gathers that output at both ends of every pair and concatenates, and the third launch's output is
  `Mlp.scores` of the result and the scorer's parameters: the reference's last stage.
-/
import proofs.«172939_j24696061952120_1_alg».proof.Proof.Gen.KernelIdeal.Frame
import proofs.«172939_j24696061952120_1_alg».proof.Proof.SageRegion
import proofs.«172939_j24696061952120_1_alg».proof.Proof.MlpRegion
import proofs.«172939_j24696061952120_1_alg».proof.Proof.HostChain
import proofs.«172939_j24696061952120_1_alg».proof.Proof.RefBridge

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- Buffer `b` of core `c` as launched. -/
abbrev arg (b : Ref sig .tc) : Buf (Elt Ideal) ((c : Thread nD τ).loc b) := m ((c : Thread nD τ).loc b)

/-! ## The first launch -/

theorem in0_mean : V1 m ρ c main_v22 = Cert.ReferenceIdeal.Read.val_main_v22 (F := Ideal) (arg m c main_arg0) (arg m c main_arg1) :=
  HostChain.mean1 (W0 m ρ c)
theorem in0_x : V1 m ρ c main_arg0 = arg m c main_arg0 := HostChain.keep0_main_arg0 (W0 m ρ c)
theorem in0_Wl : V1 m ρ c main_arg3 = arg m c main_arg3 := HostChain.keep0_main_arg3 (W0 m ρ c)
theorem in0_b : V1 m ρ c main_v23 = shapeCast S1x64 (arg m c main_arg4) shapeCasts_S64_S1x64 := HostChain.bias1 (W0 m ρ c)
theorem in0_Wr : V1 m ρ c main_arg5 = arg m c main_arg5 := HostChain.keep0_main_arg5 (W0 m ρ c)

/-- After the first launch its output array is the reference's first layer. -/
theorem layer1 : W2 m ρ c (Proc.devRef .tc main_v24) = Cert.ReferenceIdeal.Read.val_main_v29 (F := Ideal) (arg m c main_arg0) (arg m c main_arg1) (arg m c main_arg3) (arg m c main_arg4) (arg m c main_arg5) := by
  refine (W2_arr m ρ c 5).trans ((Sage.final0 (V1 m ρ) c).trans ?_)
  rw [in0_mean m ρ c, in0_x m ρ c, in0_Wl m ρ c, in0_b m ρ c, in0_Wr m ρ c]
  exact Cert.RefBridge.layer1 _ _ _ _ _ _

/-! ## What the first launch leaves alone -/

theorem src2 : W2 m ρ c (Proc.devRef .tc main_v1) = Cert.ReferenceIdeal.Read.val_main_v1 (F := Ideal) (arg m c main_arg1) :=
  (W2_of_ne m ρ c main_v1 (by decide)).trans (HostChain.src (W0 m ρ c))
theorem dst2 : W2 m ρ c (Proc.devRef .tc main_v3) = Cert.ReferenceIdeal.Read.val_main_v3 (F := Ideal) (arg m c main_arg1) :=
  (W2_of_ne m ρ c main_v3 (by decide)).trans (HostChain.dst (W0 m ρ c))
theorem w2_arg2 : W2 m ρ c (Proc.devRef .tc main_arg2) = arg m c main_arg2 :=
  (W2_of_ne m ρ c main_arg2 (by decide)).trans (HostChain.keep0_main_arg2 (W0 m ρ c))
theorem w2_arg6 : W2 m ρ c (Proc.devRef .tc main_arg6) = arg m c main_arg6 :=
  (W2_of_ne m ρ c main_arg6 (by decide)).trans (HostChain.keep0_main_arg6 (W0 m ρ c))
theorem w2_arg7 : W2 m ρ c (Proc.devRef .tc main_arg7) = arg m c main_arg7 :=
  (W2_of_ne m ρ c main_arg7 (by decide)).trans (HostChain.keep0_main_arg7 (W0 m ρ c))
theorem w2_arg8 : W2 m ρ c (Proc.devRef .tc main_arg8) = arg m c main_arg8 :=
  (W2_of_ne m ρ c main_arg8 (by decide)).trans (HostChain.keep0_main_arg8 (W0 m ρ c))
theorem w2_arg9 : W2 m ρ c (Proc.devRef .tc main_arg9) = arg m c main_arg9 :=
  (W2_of_ne m ρ c main_arg9 (by decide)).trans (HostChain.keep0_main_arg9 (W0 m ρ c))
theorem w2_arg10 : W2 m ρ c (Proc.devRef .tc main_arg10) = arg m c main_arg10 :=
  (W2_of_ne m ρ c main_arg10 (by decide)).trans (HostChain.keep0_main_arg10 (W0 m ρ c))
theorem w2_arg11 : W2 m ρ c (Proc.devRef .tc main_arg11) = arg m c main_arg11 :=
  (W2_of_ne m ρ c main_arg11 (by decide)).trans (HostChain.keep0_main_arg11 (W0 m ρ c))
theorem w2_arg12 : W2 m ρ c (Proc.devRef .tc main_arg12) = arg m c main_arg12 :=
  (W2_of_ne m ρ c main_arg12 (by decide)).trans (HostChain.keep0_main_arg12 (W0 m ρ c))

/-! ## The second launch -/

theorem in1_mean : V3 m ρ c main_v43 = Cert.ReferenceIdeal.Read.val_main_v48 (F := Ideal) (arg m c main_arg0) (arg m c main_arg1) (arg m c main_arg3) (arg m c main_arg4) (arg m c main_arg5) :=
  HostChain.mean2 (W2 m ρ c) _ _ _ _ _ (src2 m ρ c) (dst2 m ρ c) (layer1 m ρ c)
theorem in1_x : V3 m ρ c main_v24 = Cert.ReferenceIdeal.Read.val_main_v29 (F := Ideal) (arg m c main_arg0) (arg m c main_arg1) (arg m c main_arg3) (arg m c main_arg4) (arg m c main_arg5) :=
  (HostChain.keep1_main_v24 (W2 m ρ c)).trans (layer1 m ρ c)
theorem in1_Wl : V3 m ρ c main_arg6 = arg m c main_arg6 := (HostChain.keep1_main_arg6 (W2 m ρ c)).trans (w2_arg6 m ρ c)
theorem in1_b : V3 m ρ c main_v44 = shapeCast S1x64 (arg m c main_arg7) shapeCasts_S64_S1x64 :=
  (HostChain.bias2 (W2 m ρ c)).trans (by rw [w2_arg7 m ρ c])
theorem in1_Wr : V3 m ρ c main_arg8 = arg m c main_arg8 := (HostChain.keep1_main_arg8 (W2 m ρ c)).trans (w2_arg8 m ρ c)

/-- After the second launch its output array is the reference's second layer. -/
theorem layer2 : W4 m ρ c (Proc.devRef .tc main_v45) = Cert.ReferenceIdeal.Read.val_main_v55 (F := Ideal) (arg m c main_arg0) (arg m c main_arg1) (arg m c main_arg3) (arg m c main_arg4) (arg m c main_arg5) (arg m c main_arg6) (arg m c main_arg7) (arg m c main_arg8) := by
  refine (W4_arr m ρ c 5).trans ((Sage.final1 (V3 m ρ) c).trans ?_)
  rw [in1_mean m ρ c, in1_x m ρ c, in1_Wl m ρ c, in1_b m ρ c, in1_Wr m ρ c]
  exact Cert.RefBridge.layer2 _ _ _ _ _ _ _ _ _

/-! ## What the second launch leaves alone -/

theorem w4_arg2 : W4 m ρ c (Proc.devRef .tc main_arg2) = arg m c main_arg2 :=
  (W4_of_ne m ρ c main_arg2 (by decide)).trans ((HostChain.keep1_main_arg2 (W2 m ρ c)).trans (w2_arg2 m ρ c))
theorem w4_arg9 : W4 m ρ c (Proc.devRef .tc main_arg9) = arg m c main_arg9 :=
  (W4_of_ne m ρ c main_arg9 (by decide)).trans ((HostChain.keep1_main_arg9 (W2 m ρ c)).trans (w2_arg9 m ρ c))
theorem w4_arg10 : W4 m ρ c (Proc.devRef .tc main_arg10) = arg m c main_arg10 :=
  (W4_of_ne m ρ c main_arg10 (by decide)).trans ((HostChain.keep1_main_arg10 (W2 m ρ c)).trans (w2_arg10 m ρ c))
theorem w4_arg11 : W4 m ρ c (Proc.devRef .tc main_arg11) = arg m c main_arg11 :=
  (W4_of_ne m ρ c main_arg11 (by decide)).trans ((HostChain.keep1_main_arg11 (W2 m ρ c)).trans (w2_arg11 m ρ c))
theorem w4_arg12 : W4 m ρ c (Proc.devRef .tc main_arg12) = arg m c main_arg12 :=
  (W4_of_ne m ρ c main_arg12 (by decide)).trans ((HostChain.keep1_main_arg12 (W2 m ρ c)).trans (w2_arg12 m ρ c))

/-! ## The third launch -/

theorem in2_hp : V5 m ρ c main_v64 = Cert.ReferenceIdeal.Read.val_main_v74 (F := Ideal) (arg m c main_arg0) (arg m c main_arg1) (arg m c main_arg2) (arg m c main_arg3) (arg m c main_arg4) (arg m c main_arg5) (arg m c main_arg6) (arg m c main_arg7) (arg m c main_arg8) :=
  (HostChain.pairs (W4 m ρ c) _ _ _ _ _ _ _ _ (layer2 m ρ c)).trans (by rw [w4_arg2 m ρ c])
theorem in2_W1 : V5 m ρ c main_arg9 = arg m c main_arg9 := (HostChain.keep2_main_arg9 (W4 m ρ c)).trans (w4_arg9 m ρ c)
theorem in2_b1 : V5 m ρ c main_v65 = shapeCast S1x64 (arg m c main_arg10) shapeCasts_S64_S1x64 :=
  (HostChain.bias3 (W4 m ρ c)).trans (by rw [w4_arg10 m ρ c])
theorem in2_W2 : V5 m ρ c main_arg11 = arg m c main_arg11 := (HostChain.keep2_main_arg11 (W4 m ρ c)).trans (w4_arg11 m ρ c)
theorem in2_b2 : V5 m ρ c main_v66 = shapeCast S1x1 (arg m c main_arg12) shapeCasts_S1_S1x1 :=
  (HostChain.bias4 (W4 m ρ c)).trans (by rw [w4_arg12 m ρ c])

/-- After the third launch the result array is the reference's last stage of the launch arguments. -/
theorem result : W6 m ρ c (Proc.devRef .tc main_v67)
    = Cert.ReferenceIdeal.Read.val_main_v83 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) := by
  refine (W6_arr m ρ c 5).trans ((Mlp.final (V5 m ρ) c).trans ?_)
  rw [in2_hp m ρ c, in2_W1 m ρ c, in2_b1 m ρ c, in2_W2 m ρ c, in2_b2 m ρ c]
  exact Cert.RefBridge.scorer _ _ _ _ _ _ _ _ _ _ _ _ _ _ _

end Cert.KernelIdeal.Result

end
-- ==== Proof.lean ====
/-
  A two-layer GraphSAGE encoder and a pair scorer: the kernel program against its reference, over the extended reals.

  Both programs compute, from node features x, an edge list and a list of node pairs,

      mean(f)[i]  = ( Σ over edges (s → i) of f[s] ) / max (number of edges into i, 1)
      h1          = relu ( (mean(x)  · W1l + b1l) + x  · W1r )
      h2          = relu ( (mean(h1) · W2l + b2l) + h1 · W2r )
      out[p]      = relu ( [h2[a_p], h2[b_p]] · Wr1 + br1 ) · Wr2 + br2 .

  The reference does all of it with host operations. The kernel program keeps the aggregation, the gathers and the
  concatenation on the host — the very same operations — and runs the three dense steps as kernel launches tiled over
  rows: ten blocks of 10000 nodes for each layer, fifty blocks of 10000 pairs for the scorer, every product a
  `tpu.matmul` of operands narrowed to bf16 into a zero accumulator. On the extended reals a change of float format is
  the identity and such a product is the plain sum over the contracted axis, exactly what the reference's `dot_general`
  is; the blocks tile the rows; and the operations are applied in the same order on both sides. So the two results are
  one function of the arguments, entry by entry, and no property of the inputs is used: the claim holds for every
  extended-real input, finite or not.

  The modules: Proof/SageBody, Proof/MlpBody (one grid point of a launch, as arithmetic); Proof/SageRegion,
  Proof/MlpRegion (a whole launch as one function of whole arrays); Proof/HostChain (the host stretches, which are the
  reference's own stages); Proof/RefBridge (the reference's layers are those whole-array functions); Proof/KernelRun
  (the kernel program's run with its result named); Proof/KernelValue (the result is the reference's last stage).
  `preserves` asks nothing: the idealized kernel is the kernel's own text read on the extended reals.
-/
import proofs.«172939_j24696061952120_1_alg».proof.Defs
import proofs.«172939_j24696061952120_1_alg».proof.Proof.Gen.Kernel
import proofs.«172939_j24696061952120_1_alg».proof.Proof.Gen.Kernel.Frame
import proofs.«172939_j24696061952120_1_alg».proof.Proof.Gen.KernelIdeal
import proofs.«172939_j24696061952120_1_alg».proof.Proof.Gen.KernelIdeal.Frame
import proofs.«172939_j24696061952120_1_alg».proof.Proof.Gen.ReferenceIdeal
import proofs.«172939_j24696061952120_1_alg».proof.Proof.Gen.ReferenceIdeal.Run
import proofs.«172939_j24696061952120_1_alg».proof.Proof.Gen.ReferenceIdeal.Read
import proofs.«172939_j24696061952120_1_alg».proof.Proof.Gen.Pre_finite_inputs
import proofs.«172939_j24696061952120_1_alg».proof.Proof.KernelRun
import proofs.«172939_j24696061952120_1_alg».proof.Proof.KernelValue
import Idealize.ShloMosaic.Adequacy
import Idealize.ShloMosaic.Init

noncomputable section

namespace Cert.Proof

open Idealize.ShloMosaic Idealize.SL.Sem

/-- The reference's last stage of the kernel program's launch arguments on core `c`: what both programs end holding. -/
def scoresOf (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v67) :=
  Cert.ReferenceIdeal.Read.val_main_v83 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's run: the result array ends at `scoresOf` of the launch memory, the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v67) = scoresOf m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run Cert.KernelIdeal.defs _ _).mono
    (fun _ h c => ⟨(h c).1.trans (Cert.KernelIdeal.Result.result m ρ c), (h c).2⟩)
    (Cert.KernelIdeal.Run.run_named m ρ)

/-- From memories that agree on the arguments both programs end with the same result: the kernel program's is
    `scoresOf` of its arguments (`kernel_run`), and the reference's run ends at its last stage of its own arguments,
    which are the same arrays. -/
theorem algebraic : Cert.algebraic_KernelIdeal_ReferenceIdeal := by
  intro m ρ m' ρ' _ hagree
  refine ⟨scoresOf m, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v83_eq]
  obtain ⟨e0, e1, e2, e3, e4, e5, e6, e7, e8, e9, e10, e11, e12⟩ := hagree c
  rw [e0, e1, e2, e3, e4, e5, e6, e7, e8, e9, e10, e11, e12]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
